-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : IVec S2x1600000 32) (main_arg2 : FVec F S128x128 .f32) (main_arg3 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩

abbrev nBuf : Space → Nat
  | .hbm => 74
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S100000, .f32⟩
  | .hbm, ⟨18, _⟩ => ⟨S_, .i32⟩
  | .hbm, ⟨19, _⟩ => ⟨S1700000, .i32⟩
  | .hbm, ⟨20, _⟩ => ⟨S1700000, .i1⟩
  | .hbm, ⟨21, _⟩ => ⟨S_, .i32⟩
  | .hbm, ⟨22, _⟩ => ⟨S1700000, .i32⟩
  | .hbm, ⟨23, _⟩ => ⟨S1700000, .i32⟩
  | .hbm, ⟨24, _⟩ => ⟨S1700000, .i32⟩
  | .hbm, ⟨25, _⟩ => ⟨S1700000x1, .i32⟩
  | .hbm, ⟨26, _⟩ => ⟨S1700000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S100000x128, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000x128, .f32⟩
  | .hbm, ⟨47, _⟩ => ⟨S1700000x1, .f32⟩
  | .hbm, ⟨48, _⟩ => ⟨S1700000x128, .f32⟩
  | .hbm, ⟨49, _⟩ => ⟨S1700000x128, .f32⟩
  | .hbm, ⟨50, _⟩ => ⟨S_, .f32⟩
  | .hbm, ⟨51, _⟩ => ⟨S100000x128, .f32⟩
  | .hbm, ⟨52, _⟩ => ⟨S1700000x1, .i32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x128, .f32⟩
  | .hbm, ⟨67, _⟩ => ⟨S1700000x1, .f32⟩
  | .hbm, ⟨68, _⟩ => ⟨S1700000x128, .f32⟩
  | .hbm, ⟨69, _⟩ => ⟨S1700000x128, .f32⟩
  | .hbm, ⟨70, _⟩ => ⟨S_, .f32⟩
  | .hbm, ⟨71, _⟩ => ⟨S100000x128, .f32⟩
  | .hbm, ⟨72, _⟩ => ⟨S1700000x1, .i32⟩
  | .hbm, ⟨73, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_call0_cst : Ref sig .tc := ⟨.hbm, 54, rfl⟩
abbrev main_call0_v0 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S100000, .f32⟩
  | .hbm, ⟨18, _⟩ => ⟨S_, .i32⟩
  | .hbm, ⟨19, _⟩ => ⟨S1700000, .i32⟩
  | .hbm, ⟨20, _⟩ => ⟨S1700000, .i1⟩
  | .hbm, ⟨21, _⟩ => ⟨S_, .i32⟩
  | .hbm, ⟨22, _⟩ => ⟨S1700000, .i32⟩
  | .hbm, ⟨23, _⟩ => ⟨S1700000, .i32⟩
  | .hbm, ⟨24, _⟩ => ⟨S1700000, .i32⟩
  | .hbm, ⟨25, _⟩ => ⟨S1700000x1, .i32⟩
  | .hbm, ⟨26, _⟩ => ⟨S1700000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S100000x128, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000x128, .f32⟩
  | .hbm, ⟨47, _⟩ => ⟨S1700000x1, .f32⟩
  | .hbm, ⟨48, _⟩ => ⟨S1700000x128, .f32⟩
  | .hbm, ⟨49, _⟩ => ⟨S1700000x128, .f32⟩
  | .hbm, ⟨50, _⟩ => ⟨S_, .f32⟩
  | .hbm, ⟨51, _⟩ => ⟨S100000x128, .f32⟩
  | .hbm, ⟨52, _⟩ => ⟨S1700000x1, .i32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x128, .f32⟩
  | .hbm, ⟨67, _⟩ => ⟨S1700000x1, .f32⟩
  | .hbm, ⟨68, _⟩ => ⟨S1700000x128, .f32⟩
  | .hbm, ⟨69, _⟩ => ⟨S1700000x128, .f32⟩
  | .hbm, ⟨70, _⟩ => ⟨S_, .f32⟩
  | .hbm, ⟨71, _⟩ => ⟨S100000x128, .f32⟩
  | .hbm, ⟨72, _⟩ => ⟨S1700000x1, .i32⟩
  | .hbm, ⟨73, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_call0_cst : Ref sig .tc := ⟨.hbm, 54, rfl⟩
abbrev main_call0_v0 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.FinalMemory.lean ====
/-
  What the kernel program's memory holds when it returns.

  The program is six segments in order: the host operations that build the edge lists and the edge weights,
  the first dense product, the first aggregation, the rectifier, the second dense product, the second
  aggregation. The contents of a core's buffers at each boundary are a fold from the launch memory: a stretch
  of host operations rewrites the buffers it writes, a dense product rewrites its result array with what its
  twenty row blocks leave and keeps every other buffer. This module states the end of that fold as a property
  of the run: every weakly fair execution terminates, nothing faults, and every unscoped buffer of every core
  then holds the last boundary's contents. Read at the result it names what the result holds; read at an
  argument it says the argument is as launched.
-/
import proofs.«120643_j24988119728777_1_alg».proof.Proof.Gen.KernelIdeal.Frame

set_option maxRecDepth 16384

noncomputable section

namespace Cert.KernelIdeal.FinalMemory

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from memory `m` with zero counters terminates without a fault,
    and every unscoped buffer `b` of every core `c` then holds the last boundary's contents `W6 m ρ c b`. -/
theorem every_buffer : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run read at the result and at the four arguments: the result holds the last boundary's contents of
    its buffer, each argument what it held at launch. -/
theorem result_and_arguments : θ_run defs (onTc (τ := τ) (main (F := F))) ⟨m, fun _ => 0, ρ⟩ (fun r => ∀ c : Dev nD,
      r.2.mem ((c.tc : Thread nD τ).loc main_v55) = W6 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨h c _ (mem_uc main_v55 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)
    (every_buffer m ρ)

end Cert.KernelIdeal.FinalMemory

end
-- ==== Proof.ProductEntry.lean ====
/-
  One entry of what a block's body stores.

  Each of the two dense products is computed block by block: the body loads a block `x` of 5000 rows and 128
  columns of the left operand and the whole 128 by 128 right operand `w`, and stores their matrix product,
  accumulated from zero. Over the extended reals a change of float format is the identity, so the entry at row
  `p` and column `q` of what is stored is the sum over the 128 contracted positions `k` of
  `x (p, k) * w (k, q)`, the terms in the order of `k`. The second product's body first casts its block to its
  own shape, which changes nothing.
-/
import proofs.«120643_j24988119728777_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.ProductEntry

open Idealize.ShloMosaic Idealize.ShloMosaic.ValueIdx Cert.KernelIdeal Cert.KernelIdeal.Gen

/-- The left operand's position for the entry `j` and the contracted position `k`: the entry's row, column `k`. -/
abbrev leftAt (j : S5000x128.Idx) (k : Fin 128) : S5000x128.Idx := fun a => match a with
  | ⟨0, _⟩ => ⟨(j 0).val, (j 0).isLt⟩
  | ⟨1, _⟩ => ⟨k.val, k.isLt⟩

/-- The right operand's position for the entry `j` and the contracted position `k`: row `k`, the entry's column. -/
abbrev rightAt (j : S5000x128.Idx) (k : Fin 128) : S128x128.Idx := fun a => match a with
  | ⟨0, _⟩ => ⟨k.val, k.isLt⟩
  | ⟨1, _⟩ => ⟨(j 1).val, (j 1).isLt⟩

/-- The product's left factor keeps the entry's row, -/
theorem left_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- and its column is the contracted position; -/
theorem left_col (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- the right factor's row is the contracted position, -/
theorem right_row (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- and it keeps the entry's column. -/
theorem right_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's product accumulated from zero, over the extended reals, at the entry `j`: the sum over the
    contracted position of left factor times right factor. -/
theorem product_from_zero (l : FVec Ideal S5000x128 .bf16) (r : FVec Ideal S128x128 .bf16) (j : S5000x128.Idx) :
    matmul dot_S5000x128_S128x128_S5000x128_1_0_0_1_n_n none l r (constant (F := Ideal) S5000x128 .f32 0x00000000#32) j
      = ∑ k : Fin 128, l (leftAt j k) * r (rightAt j k) := by
  refine (Ideal.matmul_constant_zero_apply dot_S5000x128_S128x128_S5000x128_1_0_0_1_n_n none l r j).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx j ((contrEquiv1 dot_S5000x128_S128x128_S5000x128_1_0_0_1_n_n 128 rfl rfl).symm k) = leftAt j k := funext fun a => Fin.ext (by
    match a with
    | ⟨0, _⟩ => exact left_row _ _
    | ⟨1, _⟩ => exact (left_col _ _).trans hk)
  have er : dot_S5000x128_S128x128_S5000x128_1_0_0_1_n_n.rhsIdx j ((contrEquiv1 dot_S5000x128_S128x128_S5000x128_1_0_0_1_n_n 128 rfl rfl).symm k) = rightAt j k := funext fun a => Fin.ext (by
    match a with
    | ⟨0, _⟩ => exact (right_row _ _).trans hk
    | ⟨1, _⟩ => exact right_col _ _)
  rw [el, er]

/-- What the first product's body stores, at the entry `j`, from the block `x` and the right operand `w` it loaded. -/
theorem first_stored (x : Vec Ideal S5000x128 .f32) (w : Vec Ideal S128x128 .f32) (j : S5000x128.Idx) :
    k0_pay1 (F := Ideal) x w j = ∑ k : Fin 128, x (leftAt j k) * w (rightAt j k) := by
  unfold k0_pay1
  exact product_from_zero _ _ j

/-- What the second product's body stores: the same sum, the cast of the block to its own shape being the identity. -/
theorem second_stored (x : Vec Ideal S5000x128 .f32) (w : Vec Ideal S128x128 .f32) (j : S5000x128.Idx) :
    k1_pay1 (F := Ideal) x w j = ∑ k : Fin 128, x (leftAt j k) * w (rightAt j k) := by
  unfold k1_pay1
  refine (product_from_zero _ _ j).trans ?_
  have hs : shapeCast S5000x128 x shapeCasts_S5000x128_S5000x128 = x := shapeCast_self x _
  refine Finset.sum_congr rfl fun k _ => ?_
  exact congrArg (· * w (rightAt j k)) (congrFun hs (leftAt j k))

end Cert.KernelIdeal.ProductEntry

end
-- ==== Proof.BlockRows.lean ====
/-
  Each dense product, computed block by block, leaves the whole product in its result array.

  A product's region walks twenty grid points. At point `t` it fetches rows 5000 t … 5000 t + 4999 of the left
  operand (all 128 columns) and the whole 128 by 128 right operand, stores their product in the result's staging
  buffer and writes it back to rows 5000 t … 5000 t + 4999 of the result array. Entry (p, q) of what is written
  back is the sum over the contracted position k of left (5000 t + p, k) times right (k, q): the entry
  (5000 t + p, q) of the product of the two whole arrays, the 128 terms in the same order. The twenty blocks tile
  the 100000 rows, so after the region the result array is that whole product. Stated for any contents the region
  may find in its operand arrays: the second product's left operand is computed by the program itself.
-/
import proofs.«120643_j24988119728777_1_alg».proof.Proof.Gen.KernelIdeal.Frame
import proofs.«120643_j24988119728777_1_alg».proof.Proof.Gen.ReferenceIdeal.Read
import proofs.«120643_j24988119728777_1_alg».proof.Proof.ProductEntry
import Idealize.ShloMosaic.Lib.Pipeline.Value

set_option maxRecDepth 16384

noncomputable section

namespace Cert.KernelIdeal.BlockRows

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- Every access of a body starts at the origin of its buffer. -/
theorem origin : (![0, 0] : Fin 2 → Nat) = fun _ => 0 := funext fun a => by fin_cases a <;> rfl

/-! ## The first product -/

/-- The printed index maps, decided over the twenty grid points: the left operand's block and the result's block
    at point `t` are both block `t` along the rows and block 0 along the columns; the right operand's block is the
    whole operand. -/
theorem first_index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the two operand arrays as the product's
    region finds them: entry by entry both are the sum over the contracted position of the left array at the
    block's row and that position times the right array at that position and the entry's column. -/
theorem first_written_back (c : Dev nD) (t : Fin cfg0.N) :
    (dat0 V c).flushed 2 t = ((cfg0.win 2).blk t).view.read (Elt Ideal)
      (Cert.ReferenceIdeal.Read.val_main_v27 (F := Ideal) (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  funext j
  show k0_pay1 (F := Ideal) (iblk0 V c 0 t) (iblk0 V c 1 t) j
      = Cert.ReferenceIdeal.Read.val_main_v27 (F := Ideal) (V c main_arg0) (V c main_arg2) (((cfg0.win 2).blk t).view.emb j)
  refine (ProductEntry.first_stored (iblk0 V c 0 t) (iblk0 V c 1 t) j).trans ?_
  refine Eq.trans ?_ (Cert.ReferenceIdeal.Read.val_main_v27_apply (V c main_arg0) (V c main_arg2) (((cfg0.win 2).blk t).view.emb j)).symm
  refine Finset.sum_congr rfl fun k _ => ?_
  obtain ⟨e00, e01, e10, e11, e20, e21⟩ := first_index_maps t
  have hl : iblk0 V c 0 t (ProductEntry.leftAt j k) = V c main_arg0 (Cert.ReferenceIdeal.Read.lidx_main_v27 (((cfg0.win 2).blk t).view.emb j) k) := by
    show V c main_arg0 (((cfg0.win 0).blk t).view.emb (ProductEntry.leftAt j k)) = _
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hr : iblk0 V c 1 t (ProductEntry.rightAt j k) = V c main_arg2 (Cert.ReferenceIdeal.Read.ridx_main_v27 (((cfg0.win 2).blk t).view.emb j) k) := by
    show V c main_arg2 (((cfg0.win 1).blk t).view.emb (ProductEntry.rightAt j k)) = _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hl, hr]

/-- A position of the result array lies in point `t`'s block exactly when each coordinate lies in the block's
    range on its axis. -/
theorem first_in_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- The twenty blocks of 5000 rows tile the 100000 rows: row `r` lies in the block of point `r / 5000`, and every
    point writes its block back. -/
theorem first_tiled (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  have ht : (i 0).val / 5000 < cfg0.N := by show (i 0).val / 5000 < grid0.N; omega
  obtain ⟨e00, e01, e10, e11, e20, e21⟩ := first_index_maps ⟨(i 0).val / 5000, ht⟩
  refine ⟨⟨(i 0).val / 5000, ht⟩, flush0_2 _, ?_⟩
  rw [first_in_block]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    have e : win0_2.index ⟨(i 0).val / 5000, ht⟩ (0 : Fin 2) = (i 0).val / 5000 := e20
    omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    omega

/-- THE FIRST PRODUCT'S RESULT ARRAY after its region: the whole product of the two operand arrays as the region
    finds them. -/
theorem first_array (c : Dev nD) :
    (dat0 V c).arrAt 2 cfg0.N = Cert.ReferenceIdeal.Read.val_main_v27 (F := Ideal) (V c main_arg0) (V c main_arg2) :=
  (dat0 V c).arrAt_eq_of_cover 2 _ (fun t _ => first_written_back V c t) first_tiled

/-! ## The second product -/

/-- The second product's index maps, decided over its twenty grid points, are the first's: the left operand's block and the result's block
    at point `t` are both block `t` along the rows and block 0 along the columns; the right operand's block is the
    whole operand. -/
theorem second_index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the two operand arrays as the product's
    region finds them: entry by entry both are the sum over the contracted position of the left array at the
    block's row and that position times the right array at that position and the entry's column. -/
theorem second_written_back (c : Dev nD) (t : Fin cfg1.N) :
    (dat1 V c).flushed 2 t = ((cfg1.win 2).blk t).view.read (Elt Ideal)
      (Cert.ReferenceIdeal.Read.val_main_v27 (F := Ideal) (V c main_v41) (V c main_arg3)) := by
  show (cfg1.win 2).cut (grid1.coords t) ((dat1 V c).after 2 t) = _
  rw [after1_2]
  unfold out1_2
  rw [View.canon_unit_zero origin]
  simp only [View.ld_unit_zero (S := S5000x128) origin, View.ld_unit_zero (S := S128x128) origin]
  funext j
  show k1_pay1 (F := Ideal) (iblk1 V c 0 t) (iblk1 V c 1 t) j
      = Cert.ReferenceIdeal.Read.val_main_v27 (F := Ideal) (V c main_v41) (V c main_arg3) (((cfg1.win 2).blk t).view.emb j)
  refine (ProductEntry.second_stored (iblk1 V c 0 t) (iblk1 V c 1 t) j).trans ?_
  refine Eq.trans ?_ (Cert.ReferenceIdeal.Read.val_main_v27_apply (V c main_v41) (V c main_arg3) (((cfg1.win 2).blk t).view.emb j)).symm
  refine Finset.sum_congr rfl fun k _ => ?_
  obtain ⟨e00, e01, e10, e11, e20, e21⟩ := second_index_maps t
  have hl : iblk1 V c 0 t (ProductEntry.leftAt j k) = V c main_v41 (Cert.ReferenceIdeal.Read.lidx_main_v27 (((cfg1.win 2).blk t).view.emb j) k) := by
    show V c main_v41 (((cfg1.win 0).blk t).view.emb (ProductEntry.leftAt j k)) = _
    refine congrArg (V c main_v41) ?_
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have hr : iblk1 V c 1 t (ProductEntry.rightAt j k) = V c main_arg3 (Cert.ReferenceIdeal.Read.ridx_main_v27 (((cfg1.win 2).blk t).view.emb j) k) := by
    show V c main_arg3 (((cfg1.win 1).blk t).view.emb (ProductEntry.rightAt j k)) = _
    refine congrArg (V c main_arg3) ?_
    funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  rw [hl, hr]

/-- A position of the result array lies in point `t`'s block exactly when each coordinate lies in the block's
    range on its axis. -/
theorem second_in_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v42).slice (win1_2.rect t)).set ↔ _
  rw [View.set_slice_whole, Rect.mem_set_unit]
  exact Iff.rfl

/-- The twenty blocks of 5000 rows tile the 100000 rows: row `r` lies in the block of point `r / 5000`, and every
    point writes its block back. -/
theorem second_tiled (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 20 := N_1
  have ht : (i 0).val / 5000 < cfg1.N := by show (i 0).val / 5000 < grid1.N; omega
  obtain ⟨e00, e01, e10, e11, e20, e21⟩ := second_index_maps ⟨(i 0).val / 5000, ht⟩
  refine ⟨⟨(i 0).val / 5000, ht⟩, flush1_2 _, ?_⟩
  rw [second_in_block]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    have e : win1_2.index ⟨(i 0).val / 5000, ht⟩ (0 : Fin 2) = (i 0).val / 5000 := e20
    omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    omega

/-- THE SECOND PRODUCT'S RESULT ARRAY after its region: the whole product of the two operand arrays as the region
    finds them. -/
theorem second_array (c : Dev nD) :
    (dat1 V c).arrAt 2 cfg1.N = Cert.ReferenceIdeal.Read.val_main_v27 (F := Ideal) (V c main_v41) (V c main_arg3) :=
  (dat1 V c).arrAt_eq_of_cover 2 _ (fun t _ => second_written_back V c t) second_tiled

end Cert.KernelIdeal.BlockRows

end
-- ==== Proof.Boundaries.lean ====
/-
  The contents of the kernel program's buffers at each boundary between its segments, as the reference's stages.

  Write x, e, w1, w2 for the node features, the edge list and the two weight matrices a core holds at launch.
  The host operations before the first product compute, from e alone, the source list, the target list (each
  with one self loop per node appended) and the edge weights; the first product leaves x·w1 in its result array
  and keeps every other buffer; the first aggregation gathers the product's rows by source, scales them by the
  edge weights and adds them up by target; the rectifier takes the maximum with zero; the second product leaves
  (that)·w2; the second aggregation is the first one again. Each of these is, operation for operation, the stage
  the reference computes from the same x, e, w1, w2 — the products by the block-row theorem, everything else
  because the two programs apply the same host operations to the same operands — so the buffer the kernel
  program returns ends at the reference's last stage of the launch arguments.
-/
import proofs.«120643_j24988119728777_1_alg».proof.Proof.Gen.KernelIdeal.Frame
import proofs.«120643_j24988119728777_1_alg».proof.Proof.Gen.ReferenceIdeal.Read
import proofs.«120643_j24988119728777_1_alg».proof.Proof.BlockRows
import Idealize.ShloMosaic.Lib.StableHlo.Run

set_option maxRecDepth 16384

noncomputable section

namespace Cert.KernelIdeal.Boundaries

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- Node features, edge list and the two weight matrices, as core `c` holds them at launch. -/
abbrev x (c : Dev nD) := m ((c : Thread nD τ).loc main_arg0)
abbrev e (c : Dev nD) := m ((c : Thread nD τ).loc main_arg1)
abbrev w1 (c : Dev nD) := m ((c : Thread nD τ).loc main_arg2)
abbrev w2 (c : Dev nD) := m ((c : Thread nD τ).loc main_arg3)

/-! ## Entering the first product: the edge lists and the edge weights, the arguments untouched -/

theorem enter1_sources (c : Dev nD) : W1 m ρ c (Proc.devRef .tc main_v3) = Cert.ReferenceIdeal.Read.val_main_v3 (F := Ideal) (e m c) := by
  show StableHlo.after hostOps0 (W0 m ρ c) (Proc.devRef .tc main_v3) = _
  after_results_simp <;> rfl
theorem enter1_targets (c : Dev nD) : W1 m ρ c (Proc.devRef .tc main_v6) = Cert.ReferenceIdeal.Read.val_main_v6 (F := Ideal) (e m c) := by
  show StableHlo.after hostOps0 (W0 m ρ c) (Proc.devRef .tc main_v6) = _
  after_results_simp <;> rfl
theorem enter1_weights (c : Dev nD) : W1 m ρ c (Proc.devRef .tc main_v26) = Cert.ReferenceIdeal.Read.val_main_v26 (F := Ideal) (e m c) := by
  show StableHlo.after hostOps0 (W0 m ρ c) (Proc.devRef .tc main_v26) = _
  after_results_simp <;> rfl
theorem enter1_x (c : Dev nD) : W1 m ρ c (Proc.devRef .tc main_arg0) = x m c := by
  show StableHlo.after hostOps0 (W0 m ρ c) (Proc.devRef .tc main_arg0) = _
  after_results_simp <;> rfl
theorem enter1_w1 (c : Dev nD) : W1 m ρ c (Proc.devRef .tc main_arg2) = w1 m c := by
  show StableHlo.after hostOps0 (W0 m ρ c) (Proc.devRef .tc main_arg2) = _
  after_results_simp <;> rfl
theorem enter1_w2 (c : Dev nD) : W1 m ρ c (Proc.devRef .tc main_arg3) = w2 m c := by
  show StableHlo.after hostOps0 (W0 m ρ c) (Proc.devRef .tc main_arg3) = _
  after_results_simp <;> rfl

/-! ## Leaving the first product: its result array is x·w1, the rest is kept -/

theorem leave1_product (c : Dev nD) :
    W2 m ρ c (Proc.devRef .tc main_v27) = Cert.ReferenceIdeal.Read.val_main_v27 (F := Ideal) (x m c) (w1 m c) := by
  refine (W2_arr m ρ c 2).trans ?_
  refine (BlockRows.first_array (V1 m ρ) c).trans ?_
  rw [show V1 m ρ c main_arg0 = x m c from enter1_x m ρ c, show V1 m ρ c main_arg2 = w1 m c from enter1_w1 m ρ c]
theorem leave1_sources (c : Dev nD) : W2 m ρ c (Proc.devRef .tc main_v3) = Cert.ReferenceIdeal.Read.val_main_v3 (F := Ideal) (e m c) :=
  (W2_of_ne m ρ c main_v3 (by decide)).trans (enter1_sources m ρ c)
theorem leave1_targets (c : Dev nD) : W2 m ρ c (Proc.devRef .tc main_v6) = Cert.ReferenceIdeal.Read.val_main_v6 (F := Ideal) (e m c) :=
  (W2_of_ne m ρ c main_v6 (by decide)).trans (enter1_targets m ρ c)
theorem leave1_weights (c : Dev nD) : W2 m ρ c (Proc.devRef .tc main_v26) = Cert.ReferenceIdeal.Read.val_main_v26 (F := Ideal) (e m c) :=
  (W2_of_ne m ρ c main_v26 (by decide)).trans (enter1_weights m ρ c)
theorem leave1_w2 (c : Dev nD) : W2 m ρ c (Proc.devRef .tc main_arg3) = w2 m c :=
  (W2_of_ne m ρ c main_arg3 (by decide)).trans (enter1_w2 m ρ c)

/-! ## After the first aggregation -/

set_option maxHeartbeats 4000000 in
theorem aggregated1 (c : Dev nD) :
    W3 m ρ c (Proc.devRef .tc main_v40) = Cert.ReferenceIdeal.Read.val_main_v40 (F := Ideal) (x m c) (e m c) (w1 m c) := by
  show StableHlo.after hostOps1 (W2 m ρ c) (Proc.devRef .tc main_v40) = _
  after_results_simp
  rw [leave1_product, leave1_sources, leave1_targets, leave1_weights]
  rfl
theorem aggregated1_sources (c : Dev nD) : W3 m ρ c (Proc.devRef .tc main_v3) = Cert.ReferenceIdeal.Read.val_main_v3 (F := Ideal) (e m c) := by
  show StableHlo.after hostOps1 (W2 m ρ c) (Proc.devRef .tc main_v3) = _
  after_results
  exact leave1_sources m ρ c
theorem aggregated1_targets (c : Dev nD) : W3 m ρ c (Proc.devRef .tc main_v6) = Cert.ReferenceIdeal.Read.val_main_v6 (F := Ideal) (e m c) := by
  show StableHlo.after hostOps1 (W2 m ρ c) (Proc.devRef .tc main_v6) = _
  after_results
  exact leave1_targets m ρ c
theorem aggregated1_weights (c : Dev nD) : W3 m ρ c (Proc.devRef .tc main_v26) = Cert.ReferenceIdeal.Read.val_main_v26 (F := Ideal) (e m c) := by
  show StableHlo.after hostOps1 (W2 m ρ c) (Proc.devRef .tc main_v26) = _
  after_results
  exact leave1_weights m ρ c
theorem aggregated1_w2 (c : Dev nD) : W3 m ρ c (Proc.devRef .tc main_arg3) = w2 m c := by
  show StableHlo.after hostOps1 (W2 m ρ c) (Proc.devRef .tc main_arg3) = _
  after_results
  exact leave1_w2 m ρ c

/-! ## Entering the second product: the rectified aggregate -/

/-- The rectifier's three operations, from any contents `Z`: the maximum of what the aggregate's buffer holds with zero. -/
theorem rectify_from (Z : Valuation τ sig (Elt Ideal)) :
    StableHlo.after hostOps1_1 Z (Proc.devRef .tc main_v41)
      = maximumf (Z (Proc.devRef .tc main_v40)) (broadcastInDim S100000x128 ![] bcast_S_S100000x128 (constant (F := Ideal) S_ .f32 0x00000000#32)) := by
  after_results_simp <;> rfl

theorem enter2_rectified (c : Dev nD) :
    W4 m ρ c (Proc.devRef .tc main_v41) = Cert.ReferenceIdeal.Read.val_main_v41 (F := Ideal) (x m c) (e m c) (w1 m c) := by
  show StableHlo.after hostOps1_1 (W3 m ρ c) (Proc.devRef .tc main_v41) = _
  rw [rectify_from, aggregated1]
  rfl
theorem enter2_sources (c : Dev nD) : W4 m ρ c (Proc.devRef .tc main_v3) = Cert.ReferenceIdeal.Read.val_main_v3 (F := Ideal) (e m c) := by
  show StableHlo.after hostOps1_1 (W3 m ρ c) (Proc.devRef .tc main_v3) = _
  after_results
  exact aggregated1_sources m ρ c
theorem enter2_targets (c : Dev nD) : W4 m ρ c (Proc.devRef .tc main_v6) = Cert.ReferenceIdeal.Read.val_main_v6 (F := Ideal) (e m c) := by
  show StableHlo.after hostOps1_1 (W3 m ρ c) (Proc.devRef .tc main_v6) = _
  after_results
  exact aggregated1_targets m ρ c
theorem enter2_weights (c : Dev nD) : W4 m ρ c (Proc.devRef .tc main_v26) = Cert.ReferenceIdeal.Read.val_main_v26 (F := Ideal) (e m c) := by
  show StableHlo.after hostOps1_1 (W3 m ρ c) (Proc.devRef .tc main_v26) = _
  after_results
  exact aggregated1_weights m ρ c
theorem enter2_w2 (c : Dev nD) : W4 m ρ c (Proc.devRef .tc main_arg3) = w2 m c := by
  show StableHlo.after hostOps1_1 (W3 m ρ c) (Proc.devRef .tc main_arg3) = _
  after_results
  exact aggregated1_w2 m ρ c

/-! ## Leaving the second product: its result array is (the rectified aggregate)·w2 -/

theorem leave2_product (c : Dev nD) :
    W5 m ρ c (Proc.devRef .tc main_v42) = Cert.ReferenceIdeal.Read.val_main_v42 (F := Ideal) (x m c) (e m c) (w1 m c) (w2 m c) := by
  refine (W5_arr m ρ c 2).trans ?_
  refine (BlockRows.second_array (V4 m ρ) c).trans ?_
  rw [show V4 m ρ c main_v41 = _ from enter2_rectified m ρ c, show V4 m ρ c main_arg3 = w2 m c from enter2_w2 m ρ c]
  rfl
theorem leave2_sources (c : Dev nD) : W5 m ρ c (Proc.devRef .tc main_v3) = Cert.ReferenceIdeal.Read.val_main_v3 (F := Ideal) (e m c) :=
  (W5_of_ne m ρ c main_v3 (by decide)).trans (enter2_sources m ρ c)
theorem leave2_targets (c : Dev nD) : W5 m ρ c (Proc.devRef .tc main_v6) = Cert.ReferenceIdeal.Read.val_main_v6 (F := Ideal) (e m c) :=
  (W5_of_ne m ρ c main_v6 (by decide)).trans (enter2_targets m ρ c)
theorem leave2_weights (c : Dev nD) : W5 m ρ c (Proc.devRef .tc main_v26) = Cert.ReferenceIdeal.Read.val_main_v26 (F := Ideal) (e m c) :=
  (W5_of_ne m ρ c main_v26 (by decide)).trans (enter2_weights m ρ c)

/-! ## The result -/

set_option maxHeartbeats 4000000 in
/-- THE RETURNED BUFFER at the last boundary is the reference's last stage of the launch arguments. -/
theorem returned (c : Dev nD) :
    W6 m ρ c (Proc.devRef .tc main_v55) = Cert.ReferenceIdeal.Read.val_main_v55 (F := Ideal) (x m c) (e m c) (w1 m c) (w2 m c) := by
  show StableHlo.after hostOps2 (W5 m ρ c) (Proc.devRef .tc main_v55) = _
  after_results_simp
  rw [leave2_product, leave2_sources, leave2_targets, leave2_weights]
  rfl

end Cert.KernelIdeal.Boundaries

end
-- ==== Proof.lean ====
/-
  A two-layer graph convolution computed with blocked dense products equals the one computed with whole products.

  Both programs take node features x (100000 by 128), an edge list e (2 by 1600000) and two weight matrices
  w1, w2 (128 by 128). Both append a self loop per node to the sources and the targets, count each node's
  incoming edges, take the reciprocal square root of the counts and weigh every edge by the product of its two
  ends' values; a layer multiplies the features by a weight matrix, gathers the product's rows by source, scales
  each by its edge's weight and adds them up by target; between the two layers the maximum with zero is taken.
  The two programs differ only in how a layer's dense product is computed: the reference multiplies the whole
  arrays; the kernel program multiplies twenty blocks of 5000 rows one after the other, changing the operands'
  float format on the way.

  Over the extended reals a change of format is the identity, and a block's product entry is the same sum of 128
  terms, in the same order, as the whole product's entry in that row (`Proof/ProductEntry.lean`); the blocks tile
  the rows, so each product's result array is the whole product (`Proof/BlockRows.lean`). Everything around the
  products is the same operations on the same operands in both programs, so the buffer the kernel program
  returns holds the reference's last stage of the launch arguments (`Proof/Boundaries.lean`, over the final
  memory of `Proof/FinalMemory.lean`). No law that fails at an infinity is used: the finiteness of the inputs is
  never opened.

  The three frames: the two kernel programs' are their generated frame certificates; the reference has no kernel,
  and its frame is its run with the result dropped. The kernel program's idealization rewrote no operation, so
  there is nothing to preserve.
-/
import proofs.«120643_j24988119728777_1_alg».proof.Defs
import proofs.«120643_j24988119728777_1_alg».proof.Proof.Gen.Kernel
import proofs.«120643_j24988119728777_1_alg».proof.Proof.Gen.Kernel.Skeleton
import proofs.«120643_j24988119728777_1_alg».proof.Proof.Gen.Kernel.Launch
import proofs.«120643_j24988119728777_1_alg».proof.Proof.Gen.Kernel.Points
import proofs.«120643_j24988119728777_1_alg».proof.Proof.Gen.Kernel.Frame
import proofs.«120643_j24988119728777_1_alg».proof.Proof.Gen.KernelIdeal
import proofs.«120643_j24988119728777_1_alg».proof.Proof.Gen.KernelIdeal.Skeleton
import proofs.«120643_j24988119728777_1_alg».proof.Proof.Gen.KernelIdeal.Launch
import proofs.«120643_j24988119728777_1_alg».proof.Proof.Gen.KernelIdeal.Points
import proofs.«120643_j24988119728777_1_alg».proof.Proof.Gen.KernelIdeal.Frame
import proofs.«120643_j24988119728777_1_alg».proof.Proof.Gen.ReferenceIdeal
import proofs.«120643_j24988119728777_1_alg».proof.Proof.Gen.ReferenceIdeal.Run
import proofs.«120643_j24988119728777_1_alg».proof.Proof.Gen.ReferenceIdeal.Read
import proofs.«120643_j24988119728777_1_alg».proof.Proof.Gen.Pre_finite_inputs
import proofs.«120643_j24988119728777_1_alg».proof.Proof.FinalMemory
import proofs.«120643_j24988119728777_1_alg».proof.Proof.Boundaries
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel program's run over the extended reals: the returned buffer holds the reference's last stage of the
    launch arguments, and the arguments are as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v55)
          = Cert.ReferenceIdeal.Read.val_main_v55 (F := Ideal)
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono
    (fun _ h c => ⟨(h c).1.trans (Cert.KernelIdeal.Boundaries.returned m ρ c), (h c).2⟩)
    (Cert.KernelIdeal.FinalMemory.result_and_arguments (F := Ideal) m ρ)

/-- From memories agreeing on the arguments both programs end with the same result: the reference's last stage of
    those arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
